-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S1x128 : Shape := ⟨2, ![1, 128]⟩
abbrev S5000x128 : Shape := ⟨2, ![5000, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩

abbrev nBuf : Space → Nat
  | .hbm => 80
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S1x128, .f32⟩
  | .hbm, ⟨8, _⟩ => ⟨S100000x128, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_10 : Ref sig .tc := ⟨.hbm, 63, rfl⟩
abbrev main_v42 : Ref sig .tc := ⟨.hbm, 64, rfl⟩
abbrev main_v43 : Ref sig .tc := ⟨.hbm, 65, rfl⟩
abbrev main_c_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_12 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v53) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S1x128 : Shape := ⟨2, ![1, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S100000x128, .f32⟩
  | .hbm, ⟨8, _⟩ => ⟨S1x128, .f32⟩
  | .hbm, ⟨9, _⟩ => ⟨S100000x128, .f32⟩
  | .hbm, ⟨10, _⟩ => ⟨S100000x128, .f32⟩
  | .hbm, ⟨11, _⟩ => ⟨S_, .f32⟩
  | .hbm, ⟨12, _⟩ => ⟨S100000x128, .f32⟩
  | .hbm, ⟨13, _⟩ => ⟨S100000x128, .i1⟩
  | .hbm, ⟨14, _⟩ => ⟨S_, .f32⟩
  | .hbm, ⟨15, _⟩ => ⟨S100000x128, .f32⟩
  | .hbm, ⟨16, _⟩ => ⟨S100000x128, .f32⟩
  | .hbm, ⟨17, _⟩ => ⟨S100000x128, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000x128, .f32⟩
  | .hbm, ⟨60, _⟩ => ⟨S100000x128, .i1⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S100000x128, .f32⟩
  | .hbm, ⟨87, _⟩ => ⟨S100000x128, .i1⟩
  | .hbm, ⟨88, _⟩ => ⟨S_, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x128, .f32⟩
  | .hbm, ⟨101, _⟩ => ⟨S_, .f32⟩
  | .hbm, ⟨102, _⟩ => ⟨S100000x128, .f32⟩
  | .hbm, ⟨103, _⟩ => ⟨S1600000x1, .i32⟩
  | .hbm, ⟨104, _⟩ => ⟨S100000x128, .f32⟩
  | .hbm, ⟨105, _⟩ => ⟨S100000x128, .f32⟩
  | .hbm, ⟨106, _⟩ => ⟨S100000x128, .f32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S100000x128, .f32⟩
  | .hbm, ⟨111, _⟩ => ⟨S100000x128, .f32⟩
  | .hbm, ⟨112, _⟩ => ⟨S_, .f32⟩
  | .hbm, ⟨113, _⟩ => ⟨S100000x128, .f32⟩
  | .hbm, ⟨114, _⟩ => ⟨S100000x128, .i1⟩
  | .hbm, ⟨115, _⟩ => ⟨S_, .f32⟩
  | .hbm, ⟨116, _⟩ => ⟨S100000x128, .f32⟩
  | .hbm, ⟨117, _⟩ => ⟨S100000x128, .f32⟩
  | .hbm, ⟨118, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_v20 : Ref sig .tc := ⟨.hbm, 37, rfl⟩
abbrev main_c : Ref sig .tc := ⟨.hbm, 38, rfl⟩
abbrev main_v21 : Ref sig .tc := ⟨.hbm, 39, rfl⟩
abbrev main_v22 : Ref sig .tc := ⟨.hbm, 40, rfl⟩
abbrev main_c_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_11 : Ref sig .tc := ⟨.hbm, 65, rfl⟩
abbrev main_v43 : Ref sig .tc := ⟨.hbm, 66, rfl⟩
abbrev main_v44 : Ref sig .tc := ⟨.hbm, 67, rfl⟩
abbrev main_c_12 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_13 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩
abbrev main_cst_15 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_16 : Ref sig .tc := ⟨.hbm, 92, rfl⟩
abbrev main_v65 : Ref sig .tc := ⟨.hbm, 93, rfl⟩
abbrev main_v66 : Ref sig .tc := ⟨.hbm, 94, rfl⟩
abbrev main_c_17 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_18 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_19 : Ref sig .tc := ⟨.hbm, 112, rfl⟩
abbrev main_v82 : Ref sig .tc := ⟨.hbm, 113, rfl⟩
abbrev main_v83 : Ref sig .tc := ⟨.hbm, 114, rfl⟩
abbrev main_cst_20 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's run, with its result table named.

  The run of the kernel's main function is a chain of ten segments: stretches of host operations and four dense
  stages. The contents of every buffer at each boundary between two segments are a fold from the launch memory
  (the generated W0 … W10). The generated frame claim reads, from the last boundary, only that the seven argument
  arrays end as launched. The same chain also says what the result buffer holds at the end: the last boundary's
  contents at that buffer. This file states the run with that one more conjunct; the argument is the generated one.
-/
import proofs.«113646_j45191645888914_1_alg».proof.Proof.Gen.KernelIdeal.Frame

-- membership in a rectangle of the tables' extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the implicit arguments of the segments' launch theorem are found by unifying its conclusion with this one, which
-- takes unfolding plain definitions in a metavariable's type
set_option backward.isDefEq.respectTransparency.types false in
/-- From any memory with zero counters, every weakly fair execution of the kernel's main function on the
    TensorCores terminates, nothing faulting, and in every final state the result buffer holds the last boundary's
    contents at it, and the seven argument arrays are as launched. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v55) = W10 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v55 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Hand

end
-- ==== Proof.KernelGlue.lean ====
/-
  The irregular part of one round of mean aggregation, as the idealized kernel's host lines spell it between its four
  dense stages: the reciprocal in-degree of every node, and the mean of the neighbours' rows of a node table. Both are
  whole-array functions of the edge lists; no property of theirs is used beyond their being functions.
-/
import proofs.«113646_j45191645888914_1_alg».proof.Proof.Gen.KernelIdeal

noncomputable section

namespace Cert.KernelIdeal.Hand

open Idealize.ShloMosaic Cert.KernelIdeal Cert.KernelIdeal.Gen

variable {F : FTy → Type} [FloatOps F]

/-- The reciprocal in-degree of every node, as a column: the in-degree is the number of edges whose destination is
    the node (ones summed into a zero vector at the destinations); a node with positive in-degree gets
    1 / max(in-degree, 1), any other node 0. -/
def invDegree (dst : IVec S1600000 32) : FVec F S100000x1 .f32 :=
  broadcastInDim S100000x1 ![0] bcast_S100000_S100000x1_0
    (select
      (cmpf .ogt
        (Host.scatterAdd scatter_S100000_S1600000x1_S1600000_n_0_0_1
          (broadcastInDim S100000 ![] bcast_S_S100000 (constant (F := F) S_ .f32 0x00000000#32))
          (broadcastInDim S1600000x1 ![0] bcast_S1600000_S1600000x1_0 dst)
          (broadcastInDim S1600000 ![] bcast_S_S1600000 (constant (F := F) S_ .f32 0x3F800000#32)))
        (broadcastInDim S100000 ![] bcast_S_S100000 (constant (F := F) S_ .f32 0x00000000#32)))
      (Host.divf (broadcastInDim S100000 ![] bcast_S_S100000 (constant (F := F) S_ .f32 0x3F800000#32))
        (maximumf
          (Host.scatterAdd scatter_S100000_S1600000x1_S1600000_n_0_0_1
            (broadcastInDim S100000 ![] bcast_S_S100000 (constant (F := F) S_ .f32 0x00000000#32))
            (broadcastInDim S1600000x1 ![0] bcast_S1600000_S1600000x1_0 dst)
            (broadcastInDim S1600000 ![] bcast_S_S1600000 (constant (F := F) S_ .f32 0x3F800000#32)))
          (broadcastInDim S100000 ![] bcast_S_S100000 (constant (F := F) S_ .f32 0x3F800000#32))))
      (broadcastInDim S100000 ![] bcast_S_S100000 (id (constant (F := F) S_ .f32 0x00000000#32))))

/-- The aggregated table of a node table h: row i is the sum of the rows h(source of e) over the edges e whose
    destination is i (a negative source index counted from the end of the table), scaled by the node's reciprocal
    in-degree `inv` — the mean of the neighbours' rows. -/
def aggregate (h : FVec F S100000x128 .f32) (src dst : IVec S1600000 32) (inv : FVec F S100000x1 .f32) :
    FVec F S100000x128 .f32 :=
  mulf
    (Host.scatterAdd scatter_S100000x128_S1600000x1_S1600000x128_1_0_0_1
      (broadcastInDim S100000x128 ![] bcast_S_S100000x128 (constant (F := F) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1 inv)

end Cert.KernelIdeal.Hand

end
-- ==== Proof.Spec.lean ====
/-
  Three rounds of mean aggregation over a graph, on the extended reals.

  A node table is a 100000 × 128 matrix of extended reals. One dense layer sends row r of a table a, through a
  128 × 128 weight matrix w and a bias vector b, to the row whose entry k is  ∑ j, a(r, j) · w(j, k) + b(k).
  The leaky rectifier keeps a value v when 0 ≤ v and scales it by the f32 number nearest to 0.01 otherwise.
  The embedding of the inputs is the rectified dense layer of the features; one round of message passing takes the
  current table h and an aggregated table A(h) (the mean of the neighbours' rows; its form is the same in every
  program compared here, so it stays a parameter) to the rectifier of  dense(A(h)) + h; the result is three rounds
  from the embedding. Nothing here depends on a program.
-/
import Idealize.ShloMosaic.PureOps.Ideal
import Idealize.ShloMosaic.Lib.ValueIdx

noncomputable section

namespace Cert.MeanRounds

open Idealize.ShloMosaic Idealize.ShloMosaic.ValueIdx

/-- A table with one row of 128 features per node. -/
abbrev Nodes : Shape := ⟨2, ![100000, 128]⟩
/-- A square weight matrix over the features. -/
abbrev Weights : Shape := ⟨2, ![128, 128]⟩
/-- One bias per feature. -/
abbrev Bias : Shape := ⟨1, ![128]⟩

/-- The leaky rectifier: v where 0 ≤ v, and (the f32 number nearest 0.01) · v elsewhere. The comparison is the
    ordered "greater or equal" of the extended reals, and the two literals are the words both programs print. -/
def leaky (v : Ideal .f32) : Ideal .f32 :=
  Scalar.select (FloatOps.cmpf .oge v (FloatOps.ofBits .f32 0x00000000#32)) v
    (FloatOps.mulf (FloatOps.ofBits .f32 0x3C23D70A#32) v)

/-- Entry k of row r of the dense layer: the contraction of row r of a with column k of w, plus the bias b(k). -/
def affine (a : FVec Ideal Nodes .f32) (w : FVec Ideal Weights .f32) (b : FVec Ideal Bias .f32)
    (r : Fin 100000) (k : Fin 128) : Ideal .f32 :=
  (∑ j : Fin 128, a (ix2 r j) * w (ix2 j k)) + b (ix1 k)

/-- The embedding: the rectified dense layer of the node features. -/
def embed (x : FVec Ideal Nodes .f32) (w : FVec Ideal Weights .f32) (b : FVec Ideal Bias .f32) :
    FVec Ideal Nodes .f32 :=
  fun i => leaky (affine x w b (i 0) (i 1))

/-- One round: the rectifier of the dense layer of the aggregated table plus the current table, entry by entry,
    the sum taken as (dense + bias) + current. -/
def update (a h : FVec Ideal Nodes .f32) (w : FVec Ideal Weights .f32) (b : FVec Ideal Bias .f32) :
    FVec Ideal Nodes .f32 :=
  fun i => leaky (affine a w b (i 0) (i 1) + h i)

/-- Three rounds from the embedding, the aggregation `A` a parameter. -/
def threeRounds (A : FVec Ideal Nodes .f32 → FVec Ideal Nodes .f32)
    (x : FVec Ideal Nodes .f32) (w1 : FVec Ideal Weights .f32) (b1 : FVec Ideal Bias .f32)
    (w2 : FVec Ideal Weights .f32) (b2 : FVec Ideal Bias .f32) : FVec Ideal Nodes .f32 :=
  let round := fun h => update (A h) h w2 b2
  round (round (round (embed x w1 b1)))

end Cert.MeanRounds

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.KernelBlocks.lean ====
/-
  Each dense stage of the kernel, block by block, is one whole-table function.

  A stage runs over twenty blocks of 5000 rows. At block t its body reads rows 5000·t … 5000·t + 4999 of the stage's
  node tables, the whole weight matrix and the bias row, and writes the same rows of the result: entry (p, k) of the
  block is the rectifier of  ∑ j, a(5000·t + p, j) · w(j, k) + b(k)  (plus the current table's entry, in a round) — the
  contraction is exact on the extended reals, and the rounding of the operands to bf16 is the identity there. The twenty
  blocks tile the table, so the result table is `embed`, or `update`, of the tables the stage found.
-/
import proofs.«113646_j45191645888914_1_alg».proof.Proof.Gen.KernelIdeal.Frame
import proofs.«113646_j45191645888914_1_alg».proof.Proof.Spec
import proofs.«113646_j45191645888914_1_alg».proof.Proof.LibMatmulAt
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen Cert.MeanRounds

variable (V : (c : Dev nD) → (b : Ref sig .tc) → Buf (Elt Ideal) ((c : Thread nD τ).loc b))

/-! ## The blocks' arithmetic, entry by entry -/

theorem zero_offsets : (![0, 0] : Fin 2 → Nat) = fun _ => 0 := funext fun a => by fin_cases a <;> rfl

/-- A block's pre-activation at (p, k): the exact contraction of row p of the block with column k of the weights,
    plus the bias row's entry k. The operands' rounding to bf16 is the identity on the extended reals, and a product
    accumulated into the zero splat is the plain sum. -/
theorem dense_block_apply (x0 : FVec Ideal S5000x128 .f32) (x1 : FVec Ideal S128x128 .f32) (x2 : FVec Ideal S1x128 .f32)
    (p : Fin 5000) (k : Fin 128) :
    addf (matmul dot_S5000x128_S128x128_S5000x128_1_0_0_1_n_n none (truncf .bf16 x0 bitsLt_bf16_f32)
        (truncf .bf16 x1 bitsLt_bf16_f32) (constant S5000x128 .f32 0x00000000#32))
      (broadcastTo S5000x128 (shapeCast S1x128 x2 shapeCasts_S1x128_S1x128) broadcasts_S1x128_S5000x128) (ix2 p k)
    = (∑ j : Fin 128, x0 (ix2 p j) * x1 (ix2 j k)) + x2 (ix2 (0 : Fin 1) k) := by
  have hm := matmul_zero_plain_apply (M := 5000) (K := 128) (N := 128) dot_S5000x128_S128x128_S5000x128_1_0_0_1_n_n rfl none
    (truncf .bf16 x0 bitsLt_bf16_f32) (truncf .bf16 x1 bitsLt_bf16_f32) (ix2 p k)
  rw [addf_apply, hm, shapeCast_self, broadcastTo_1b_ab_apply]
  rfl

/-- What the first stage's body stores at (p, k) of its block. -/
theorem embed_payload_apply (x0 : FVec Ideal S5000x128 .f32) (x1 : FVec Ideal S128x128 .f32) (x2 : FVec Ideal S1x128 .f32)
    (p : Fin 5000) (k : Fin 128) :
    k0_pay1 x0 x1 x2 (ix2 p k)
      = leaky ((∑ j : Fin 128, x0 (ix2 p j) * x1 (ix2 j k)) + x2 (ix2 (0 : Fin 1) k)) := by
  rw [← dense_block_apply]
  rfl

/-- What a round's body stores at (p, k) of its block: the aggregated block through the dense layer, plus the
    current block's entry, rectified. -/
theorem round_payload_apply (x0 : FVec Ideal S5000x128 .f32) (x3 : FVec Ideal S128x128 .f32) (x6 : FVec Ideal S1x128 .f32)
    (x10 : FVec Ideal S5000x128 .f32) (p : Fin 5000) (k : Fin 128) :
    k1_pay1 x0 x3 x6 x10 (ix2 p k)
      = leaky ((∑ j : Fin 128, x0 (ix2 p j) * x3 (ix2 j k)) + x6 (ix2 (0 : Fin 1) k) + x10 (ix2 p k)) := by
  rw [← dense_block_apply]
  show k1_pay1 x0 x3 x6 x10 (ix2 p k) = leaky (addf (addf _ _) x10 (ix2 p k))
  unfold k1_pay1
  simp only [shapeCast_self]
  rfl

/-! ## The first stage: twenty blocks of the embedding -/

/-- The index maps of the first stage, over its twenty grid points: the feature table and the result move with the
    point along the rows; the weights and the bias row stay. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One stored entry of the first stage is the embedding's entry at the table index it lands on, once the loaded
    blocks are the right rows of the tables. -/
theorem embed_entry (A0 : FVec Ideal S100000x128 .f32) (A1 : FVec Ideal S128x128 .f32) (b : FVec Ideal S128 .f32)
    (x0 : FVec Ideal S5000x128 .f32) (x1 : FVec Ideal S128x128 .f32) (x2 : FVec Ideal S1x128 .f32)
    (p : Fin 5000) (k : Fin 128) (i : S100000x128.Idx)
    (h0 : ∀ j : Fin 128, x0 (ix2 p j) = A0 (ix2 (i 0) j)) (h1 : x1 = A1)
    (h2 : ∀ k : Fin 128, x2 (ix2 (0 : Fin 1) k) = b (ix1 k)) (hi : i 1 = k) :
    k0_pay1 x0 x1 x2 (ix2 p k) = embed A0 A1 b i := by
  rw [embed_payload_apply]
  subst h1
  unfold embed affine
  rw [hi, h2]
  simp only [h0]

theorem embed_block (c : Dev nD) (b : FVec Ideal S128 .f32)
    (hb : (V c main_v0 : FVec Ideal S1x128 .f32) = shapeCast S1x128 b shapeCasts_S128_S1x128) (t : Fin cfg0.N) :
    (dat0 (F := Ideal) V c).flushed 3 t
      = ((cfg0.win 3).blk t).view.read (Elt Ideal) (embed (V c main_arg0) (V c main_arg1) b) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31⟩ := index_facts0 t
  funext y
  obtain ⟨p, k, rfl⟩ : ∃ (p : Fin 5000) (k : Fin 128), y = ix2 p k := ⟨y 0, y 1, eq_ix2 y⟩
  refine embed_entry (V c main_arg0) (V c main_arg1) b (iblk0 V c 0 t) (iblk0 V c 1 t) (iblk0 V c 2 t) p k
    (((cfg0.win 3).blk t).view.emb (ix2 p k)) ?_ ?_ ?_ ?_
  · intro j
    show (V c main_arg0 : S100000x128.Idx → Ideal .f32) (((cfg0.win 0).blk t).view.emb (ix2 p j)) = _
    refine congrArg (V c main_arg0 : S100000x128.Idx → Ideal .f32) (funext fun a => Fin.ext ?_)
    match a with
    | ⟨0, _⟩ =>
      show win0_0.index t (0 : Fin 2) * 5000 + 1 * p.val = win0_3.index t (0 : Fin 2) * 5000 + 1 * p.val
      omega
    | ⟨1, _⟩ =>
      show win0_0.index t (1 : Fin 2) * 128 + 1 * j.val = j.val
      omega
  · funext z
    show (V c main_arg1 : S128x128.Idx → Ideal .f32) (((cfg0.win 1).blk t).view.emb z) = _
    refine congrArg (V c main_arg1 : S128x128.Idx → Ideal .f32) (funext fun a => Fin.ext ?_)
    match a with
    | ⟨0, _⟩ =>
      show win0_1.index t (0 : Fin 2) * 128 + 1 * (z 0).val = (z 0).val
      omega
    | ⟨1, _⟩ =>
      show win0_1.index t (1 : Fin 2) * 128 + 1 * (z 1).val = (z 1).val
      omega
  · intro k'
    show (V c main_v0 : S1x128.Idx → Ideal .f32) (((cfg0.win 2).blk t).view.emb (ix2 (0 : Fin 1) k')) = _
    rw [hb]
    refine (congrArg (shapeCast S1x128 b shapeCasts_S128_S1x128) (funext fun a => Fin.ext ?_)).trans
      (shapeCast_a_1a_apply b shapeCasts_S128_S1x128 (0 : Fin 1) k')
    match a with
    | ⟨0, _⟩ =>
      show win0_2.index t (0 : Fin 2) * 1 + 1 * 0 = 0
      omega
    | ⟨1, _⟩ =>
      show win0_2.index t (1 : Fin 2) * 128 + 1 * k'.val = k'.val
      omega
  · refine Fin.ext ?_
    show win0_3.index t (1 : Fin 2) * 128 + 1 * k.val = k.val
    omega

/-- Membership in the result block of point t, per axis. -/
theorem mem_block0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1).slice (win0_3.rect t)).set ↔ _
  rw [View.set_slice_whole, Rect.mem_set_unit]
  exact Iff.rfl

/-- Row r of the table lies in the block of point r / 5000: the twenty blocks tile the table. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, e30, e31⟩ := index_facts0 ⟨(i 0).val / 5000, ht⟩
  have e30' : win0_3.index ⟨(i 0).val / 5000, ht⟩ (0 : Fin 2) = (i 0).val / 5000 := e30
  refine ⟨⟨(i 0).val / 5000, ht⟩, flush0_3 _, ?_⟩
  rw [mem_block0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    omega

/-- The first stage's result table is the embedding of the tables it found, the bias row being the cast of a
    bias vector b. -/
theorem embed_array (c : Dev nD) (b : FVec Ideal S128 .f32)
    (hb : (V c main_v0 : FVec Ideal S1x128 .f32) = shapeCast S1x128 b shapeCasts_S128_S1x128) :
    (dat0 (F := Ideal) V c).arrAt 3 cfg0.N = embed (V c main_arg0) (V c main_arg1) b :=
  (dat0 (F := Ideal) V c).arrAt_eq_of_cover 3 (embed (V c main_arg0) (V c main_arg1) b)
    (fun t _ => embed_block V c b hb t) cover0

/-! ## The three rounds -/

/-- One stored entry of a round is `update`'s entry at the table index it lands on, once the loaded blocks are the
    right rows of the tables. -/
theorem round_entry (A0 A1 : FVec Ideal S100000x128 .f32) (A2 : FVec Ideal S128x128 .f32) (b : FVec Ideal S128 .f32)
    (x0 x1 : FVec Ideal S5000x128 .f32) (x2 : FVec Ideal S128x128 .f32) (x3 : FVec Ideal S1x128 .f32)
    (p : Fin 5000) (k : Fin 128) (i : S100000x128.Idx)
    (h0 : ∀ j : Fin 128, x0 (ix2 p j) = A0 (ix2 (i 0) j)) (h1 : x1 (ix2 p k) = A1 i) (h2 : x2 = A2)
    (h3 : ∀ k : Fin 128, x3 (ix2 (0 : Fin 1) k) = b (ix1 k)) (hi : i 1 = k) :
    k1_pay1 x0 x2 x3 x1 (ix2 p k) = update A0 A1 A2 b i := by
  rw [round_payload_apply]
  subst h2
  unfold update affine
  rw [hi, h3, h1]
  simp only [h0]

/-- The three rounds run one body. -/
theorem round2_payload : @k2_pay1 Ideal _ = @k1_pay1 Ideal _ := rfl
theorem round3_payload : @k3_pay1 Ideal _ = @k1_pay1 Ideal _ := rfl

/-! ### The first round -/

/-- The index maps of the first round, over its twenty grid points: the aggregated table, the current table and the
    result move with the point along the rows; the weights and the bias row stay. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem update_block1 (c : Dev nD) (b : FVec Ideal S128 .f32)
    (hb : (V c main_v26 : FVec Ideal S1x128 .f32) = shapeCast S1x128 b shapeCasts_S128_S1x128) (t : Fin cfg1.N) :
    (dat1 (F := Ideal) V c).flushed 4 t
      = ((cfg1.win 4).blk t).view.read (Elt Ideal) (update (V c main_v25) (V c main_v1) (V c main_arg3) b) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41⟩ := index_facts1 t
  funext y
  obtain ⟨p, k, rfl⟩ : ∃ (p : Fin 5000) (k : Fin 128), y = ix2 p k := ⟨y 0, y 1, eq_ix2 y⟩
  refine round_entry (V c main_v25) (V c main_v1) (V c main_arg3) b (iblk1 V c 0 t) (iblk1 V c 1 t) (iblk1 V c 2 t)
    (iblk1 V c 3 t) p k (((cfg1.win 4).blk t).view.emb (ix2 p k)) ?_ ?_ ?_ ?_ ?_
  · intro j
    show (V c main_v25 : S100000x128.Idx → Ideal .f32) (((cfg1.win 0).blk t).view.emb (ix2 p j)) = _
    refine congrArg (V c main_v25 : S100000x128.Idx → Ideal .f32) (funext fun a => Fin.ext ?_)
    match a with
    | ⟨0, _⟩ =>
      show win1_0.index t (0 : Fin 2) * 5000 + 1 * p.val = win1_4.index t (0 : Fin 2) * 5000 + 1 * p.val
      omega
    | ⟨1, _⟩ =>
      show win1_0.index t (1 : Fin 2) * 128 + 1 * j.val = j.val
      omega
  · show (V c main_v1 : S100000x128.Idx → Ideal .f32) (((cfg1.win 1).blk t).view.emb (ix2 p k)) = _
    refine congrArg (V c main_v1 : S100000x128.Idx → Ideal .f32) (funext fun a => Fin.ext ?_)
    match a with
    | ⟨0, _⟩ =>
      show win1_1.index t (0 : Fin 2) * 5000 + 1 * p.val = win1_4.index t (0 : Fin 2) * 5000 + 1 * p.val
      omega
    | ⟨1, _⟩ =>
      show win1_1.index t (1 : Fin 2) * 128 + 1 * k.val = win1_4.index t (1 : Fin 2) * 128 + 1 * k.val
      omega
  · funext z
    show (V c main_arg3 : S128x128.Idx → Ideal .f32) (((cfg1.win 2).blk t).view.emb z) = _
    refine congrArg (V c main_arg3 : S128x128.Idx → Ideal .f32) (funext fun a => Fin.ext ?_)
    match a with
    | ⟨0, _⟩ =>
      show win1_2.index t (0 : Fin 2) * 128 + 1 * (z 0).val = (z 0).val
      omega
    | ⟨1, _⟩ =>
      show win1_2.index t (1 : Fin 2) * 128 + 1 * (z 1).val = (z 1).val
      omega
  · intro k'
    show (V c main_v26 : S1x128.Idx → Ideal .f32) (((cfg1.win 3).blk t).view.emb (ix2 (0 : Fin 1) k')) = _
    rw [hb]
    refine (congrArg (shapeCast S1x128 b shapeCasts_S128_S1x128) (funext fun a => Fin.ext ?_)).trans
      (shapeCast_a_1a_apply b shapeCasts_S128_S1x128 (0 : Fin 1) k')
    match a with
    | ⟨0, _⟩ =>
      show win1_3.index t (0 : Fin 2) * 1 + 1 * 0 = 0
      omega
    | ⟨1, _⟩ =>
      show win1_3.index t (1 : Fin 2) * 128 + 1 * k'.val = k'.val
      omega
  · refine Fin.ext ?_
    show win1_4.index t (1 : Fin 2) * 128 + 1 * k.val = k.val
    omega

/-- Membership in the result block of point t, per axis. -/
theorem mem_block1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v27).slice (win1_4.rect t)).set ↔ _
  rw [View.set_slice_whole, Rect.mem_set_unit]
  exact Iff.rfl

/-- Row r of the table lies in the block of point r / 5000. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, e40, e41⟩ := index_facts1 ⟨(i 0).val / 5000, ht⟩
  have e40' : win1_4.index ⟨(i 0).val / 5000, ht⟩ (0 : Fin 2) = (i 0).val / 5000 := e40
  refine ⟨⟨(i 0).val / 5000, ht⟩, flush1_4 _, ?_⟩
  rw [mem_block1]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    omega

/-- The first round's result table is `update` of the tables it found, the bias row being the cast of a bias vector b. -/
theorem update_array1 (c : Dev nD) (b : FVec Ideal S128 .f32)
    (hb : (V c main_v26 : FVec Ideal S1x128 .f32) = shapeCast S1x128 b shapeCasts_S128_S1x128) :
    (dat1 (F := Ideal) V c).arrAt 4 cfg1.N = update (V c main_v25) (V c main_v1) (V c main_arg3) b :=
  (dat1 (F := Ideal) V c).arrAt_eq_of_cover 4 (update (V c main_v25) (V c main_v1) (V c main_arg3) b)
    (fun t _ => update_block1 V c b hb t) cover1

/-! ### The second round -/

/-- The index maps of the second round, over its twenty grid points: the aggregated table, the current table and the
    result move with the point along the rows; the weights and the bias row stay. -/
theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem update_block2 (c : Dev nD) (b : FVec Ideal S128 .f32)
    (hb : (V c main_v40 : FVec Ideal S1x128 .f32) = shapeCast S1x128 b shapeCasts_S128_S1x128) (t : Fin cfg2.N) :
    (dat2 (F := Ideal) V c).flushed 4 t
      = ((cfg2.win 4).blk t).view.read (Elt Ideal) (update (V c main_v39) (V c main_v27) (V c main_arg3) b) := by
  show (cfg2.win 4).cut (grid2.coords t) ((dat2 V c).after 4 t) = _
  rw [after2_4]
  unfold out2_4
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41⟩ := index_facts2 t
  funext y
  obtain ⟨p, k, rfl⟩ : ∃ (p : Fin 5000) (k : Fin 128), y = ix2 p k := ⟨y 0, y 1, eq_ix2 y⟩
  rw [round2_payload]
  refine round_entry (V c main_v39) (V c main_v27) (V c main_arg3) b (iblk2 V c 0 t) (iblk2 V c 1 t) (iblk2 V c 2 t)
    (iblk2 V c 3 t) p k (((cfg2.win 4).blk t).view.emb (ix2 p k)) ?_ ?_ ?_ ?_ ?_
  · intro j
    show (V c main_v39 : S100000x128.Idx → Ideal .f32) (((cfg2.win 0).blk t).view.emb (ix2 p j)) = _
    refine congrArg (V c main_v39 : S100000x128.Idx → Ideal .f32) (funext fun a => Fin.ext ?_)
    match a with
    | ⟨0, _⟩ =>
      show win2_0.index t (0 : Fin 2) * 5000 + 1 * p.val = win2_4.index t (0 : Fin 2) * 5000 + 1 * p.val
      omega
    | ⟨1, _⟩ =>
      show win2_0.index t (1 : Fin 2) * 128 + 1 * j.val = j.val
      omega
  · show (V c main_v27 : S100000x128.Idx → Ideal .f32) (((cfg2.win 1).blk t).view.emb (ix2 p k)) = _
    refine congrArg (V c main_v27 : S100000x128.Idx → Ideal .f32) (funext fun a => Fin.ext ?_)
    match a with
    | ⟨0, _⟩ =>
      show win2_1.index t (0 : Fin 2) * 5000 + 1 * p.val = win2_4.index t (0 : Fin 2) * 5000 + 1 * p.val
      omega
    | ⟨1, _⟩ =>
      show win2_1.index t (1 : Fin 2) * 128 + 1 * k.val = win2_4.index t (1 : Fin 2) * 128 + 1 * k.val
      omega
  · funext z
    show (V c main_arg3 : S128x128.Idx → Ideal .f32) (((cfg2.win 2).blk t).view.emb z) = _
    refine congrArg (V c main_arg3 : S128x128.Idx → Ideal .f32) (funext fun a => Fin.ext ?_)
    match a with
    | ⟨0, _⟩ =>
      show win2_2.index t (0 : Fin 2) * 128 + 1 * (z 0).val = (z 0).val
      omega
    | ⟨1, _⟩ =>
      show win2_2.index t (1 : Fin 2) * 128 + 1 * (z 1).val = (z 1).val
      omega
  · intro k'
    show (V c main_v40 : S1x128.Idx → Ideal .f32) (((cfg2.win 3).blk t).view.emb (ix2 (0 : Fin 1) k')) = _
    rw [hb]
    refine (congrArg (shapeCast S1x128 b shapeCasts_S128_S1x128) (funext fun a => Fin.ext ?_)).trans
      (shapeCast_a_1a_apply b shapeCasts_S128_S1x128 (0 : Fin 1) k')
    match a with
    | ⟨0, _⟩ =>
      show win2_3.index t (0 : Fin 2) * 1 + 1 * 0 = 0
      omega
    | ⟨1, _⟩ =>
      show win2_3.index t (1 : Fin 2) * 128 + 1 * k'.val = k'.val
      omega
  · refine Fin.ext ?_
    show win2_4.index t (1 : Fin 2) * 128 + 1 * k.val = k.val
    omega

/-- Membership in the result block of point t, per axis. -/
theorem mem_block2 (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v41).slice (win2_4.rect t)).set ↔ _
  rw [View.set_slice_whole, Rect.mem_set_unit]
  exact Iff.rfl

/-- Row r of the table lies in the block of point r / 5000. -/
theorem cover2 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨-, -, -, -, -, -, -, -, e40, e41⟩ := index_facts2 ⟨(i 0).val / 5000, ht⟩
  have e40' : win2_4.index ⟨(i 0).val / 5000, ht⟩ (0 : Fin 2) = (i 0).val / 5000 := e40
  refine ⟨⟨(i 0).val / 5000, ht⟩, flush2_4 _, ?_⟩
  rw [mem_block2]
  intro a
  match a with
  | ⟨0, _⟩ =>
    show win2_4.index ⟨(i 0).val / 5000, ht⟩ (0 : Fin 2) * 5000 ≤ (i 0).val
      ∧ (i 0).val < win2_4.index ⟨(i 0).val / 5000, ht⟩ (0 : Fin 2) * 5000 + 5000
    omega
  | ⟨1, _⟩ =>
    show win2_4.index ⟨(i 0).val / 5000, ht⟩ (1 : Fin 2) * 128 ≤ (i 1).val
      ∧ (i 1).val < win2_4.index ⟨(i 0).val / 5000, ht⟩ (1 : Fin 2) * 128 + 128
    omega

/-- The second round's result table is `update` of the tables it found, the bias row being the cast of a bias vector b. -/
theorem update_array2 (c : Dev nD) (b : FVec Ideal S128 .f32)
    (hb : (V c main_v40 : FVec Ideal S1x128 .f32) = shapeCast S1x128 b shapeCasts_S128_S1x128) :
    (dat2 (F := Ideal) V c).arrAt 4 cfg2.N = update (V c main_v39) (V c main_v27) (V c main_arg3) b :=
  (dat2 (F := Ideal) V c).arrAt_eq_of_cover 4 (update (V c main_v39) (V c main_v27) (V c main_arg3) b)
    (fun t _ => update_block2 V c b hb t) cover2

/-! ### The third round -/

/-- The index maps of the third round, over its twenty grid points: the aggregated table, the current table and the
    result move with the point along the rows; the weights and the bias row stay. -/
theorem index_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem update_block3 (c : Dev nD) (b : FVec Ideal S128 .f32)
    (hb : (V c main_v54 : FVec Ideal S1x128 .f32) = shapeCast S1x128 b shapeCasts_S128_S1x128) (t : Fin cfg3.N) :
    (dat3 (F := Ideal) V c).flushed 4 t
      = ((cfg3.win 4).blk t).view.read (Elt Ideal) (update (V c main_v53) (V c main_v41) (V c main_arg3) b) := by
  show (cfg3.win 4).cut (grid3.coords t) ((dat3 V c).after 4 t) = _
  rw [after3_4]
  unfold out3_4
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41⟩ := index_facts3 t
  funext y
  obtain ⟨p, k, rfl⟩ : ∃ (p : Fin 5000) (k : Fin 128), y = ix2 p k := ⟨y 0, y 1, eq_ix2 y⟩
  rw [round3_payload]
  refine round_entry (V c main_v53) (V c main_v41) (V c main_arg3) b (iblk3 V c 0 t) (iblk3 V c 1 t) (iblk3 V c 2 t)
    (iblk3 V c 3 t) p k (((cfg3.win 4).blk t).view.emb (ix2 p k)) ?_ ?_ ?_ ?_ ?_
  · intro j
    show (V c main_v53 : S100000x128.Idx → Ideal .f32) (((cfg3.win 0).blk t).view.emb (ix2 p j)) = _
    refine congrArg (V c main_v53 : S100000x128.Idx → Ideal .f32) (funext fun a => Fin.ext ?_)
    match a with
    | ⟨0, _⟩ =>
      show win3_0.index t (0 : Fin 2) * 5000 + 1 * p.val = win3_4.index t (0 : Fin 2) * 5000 + 1 * p.val
      omega
    | ⟨1, _⟩ =>
      show win3_0.index t (1 : Fin 2) * 128 + 1 * j.val = j.val
      omega
  · show (V c main_v41 : S100000x128.Idx → Ideal .f32) (((cfg3.win 1).blk t).view.emb (ix2 p k)) = _
    refine congrArg (V c main_v41 : S100000x128.Idx → Ideal .f32) (funext fun a => Fin.ext ?_)
    match a with
    | ⟨0, _⟩ =>
      show win3_1.index t (0 : Fin 2) * 5000 + 1 * p.val = win3_4.index t (0 : Fin 2) * 5000 + 1 * p.val
      omega
    | ⟨1, _⟩ =>
      show win3_1.index t (1 : Fin 2) * 128 + 1 * k.val = win3_4.index t (1 : Fin 2) * 128 + 1 * k.val
      omega
  · funext z
    show (V c main_arg3 : S128x128.Idx → Ideal .f32) (((cfg3.win 2).blk t).view.emb z) = _
    refine congrArg (V c main_arg3 : S128x128.Idx → Ideal .f32) (funext fun a => Fin.ext ?_)
    match a with
    | ⟨0, _⟩ =>
      show win3_2.index t (0 : Fin 2) * 128 + 1 * (z 0).val = (z 0).val
      omega
    | ⟨1, _⟩ =>
      show win3_2.index t (1 : Fin 2) * 128 + 1 * (z 1).val = (z 1).val
      omega
  · intro k'
    show (V c main_v54 : S1x128.Idx → Ideal .f32) (((cfg3.win 3).blk t).view.emb (ix2 (0 : Fin 1) k')) = _
    rw [hb]
    refine (congrArg (shapeCast S1x128 b shapeCasts_S128_S1x128) (funext fun a => Fin.ext ?_)).trans
      (shapeCast_a_1a_apply b shapeCasts_S128_S1x128 (0 : Fin 1) k')
    match a with
    | ⟨0, _⟩ =>
      show win3_3.index t (0 : Fin 2) * 1 + 1 * 0 = 0
      omega
    | ⟨1, _⟩ =>
      show win3_3.index t (1 : Fin 2) * 128 + 1 * k'.val = k'.val
      omega
  · refine Fin.ext ?_
    show win3_4.index t (1 : Fin 2) * 128 + 1 * k.val = k.val
    omega

/-- Membership in the result block of point t, per axis. -/
theorem mem_block3 (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v55).slice (win3_4.rect t)).set ↔ _
  rw [View.set_slice_whole, Rect.mem_set_unit]
  exact Iff.rfl

/-- Row r of the table lies in the block of point r / 5000. -/
theorem cover3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨-, -, -, -, -, -, -, -, e40, e41⟩ := index_facts3 ⟨(i 0).val / 5000, ht⟩
  have e40' : win3_4.index ⟨(i 0).val / 5000, ht⟩ (0 : Fin 2) = (i 0).val / 5000 := e40
  refine ⟨⟨(i 0).val / 5000, ht⟩, flush3_4 _, ?_⟩
  rw [mem_block3]
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    omega
  | ⟨1, _⟩ =>
    show win3_4.index ⟨(i 0).val / 5000, ht⟩ (1 : Fin 2) * 128 ≤ (i 1).val
      ∧ (i 1).val < win3_4.index ⟨(i 0).val / 5000, ht⟩ (1 : Fin 2) * 128 + 128
    omega

/-- The third round's result table is `update` of the tables it found, the bias row being the cast of a bias vector b. -/
theorem update_array3 (c : Dev nD) (b : FVec Ideal S128 .f32)
    (hb : (V c main_v54 : FVec Ideal S1x128 .f32) = shapeCast S1x128 b shapeCasts_S128_S1x128) :
    (dat3 (F := Ideal) V c).arrAt 4 cfg3.N = update (V c main_v53) (V c main_v41) (V c main_arg3) b :=
  (dat3 (F := Ideal) V c).arrAt_eq_of_cover 4 (update (V c main_v53) (V c main_v41) (V c main_arg3) b)
    (fun t _ => update_block3 V c b hb t) cover3

end Cert.KernelIdeal.Hand

end
-- ==== Proof.KernelFold.lean ====
/-
  The idealized kernel's result: three rounds of mean aggregation.

  Between its four dense stages the kernel's main function runs straight lines of whole-array host operations: the
  one-row casts of the two bias vectors, the reciprocal in-degree of every node (once, before the first round), and
  before each round the mean of the neighbours' rows of the current table. Read off those lines, and with each dense
  stage the whole-table function it is, the contents of the result buffer at the end of the run are three nested
  rounds around the embedding of the launched features, which is the specification's threeRounds at the kernel's own
  aggregation.
-/
import proofs.«113646_j45191645888914_1_alg».proof.Proof.KernelRun
import proofs.«113646_j45191645888914_1_alg».proof.Proof.KernelGlue
import proofs.«113646_j45191645888914_1_alg».proof.Proof.KernelBlocks
import proofs.«113646_j45191645888914_1_alg».proof.Proof.Spec

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen Cert.MeanRounds

/-! ## The host stretches, over any contents W found at their start

Each stretch is a straight line of whole-array operations. What a buffer holds after it is read off the line: the
result buffer of an operation holds the operation's function of its operands' contents, and a buffer no operation of
the line writes holds what it held. -/

section Host

variable {F : FTy → Type} [FloatOps F]

/-- After the first stretch the bias row of the first stage is the one-row cast of the first bias vector. -/
theorem host0_v0 (W : Valuation τ sig (Elt F)) :
    (StableHlo.after hostOps0 W (Proc.devRef .tc main_v0) : FVec F S1x128 .f32)
      = shapeCast S1x128 (W (Proc.devRef .tc main_arg2) : FVec F S128 .f32) shapeCasts_S128_S1x128 := by
  dsimp only [hostOps0]
  after_results
  rfl

/-- The first stretch writes that row only. -/
theorem host0_keep (W : Valuation τ sig (Elt F)) {b : Ref sig .tc} (hb : b ≠ main_v0) :
    StableHlo.after hostOps0 W (Proc.devRef .tc b) = W (Proc.devRef .tc b) := by
  dsimp only [hostOps0]
  rw [StableHlo.after_cons, StableHlo.after_nil, StableHlo.reshape_result_ne _ _ _ _ _ _ _ hb]

/-- Between the first stage and the first round: the reciprocal in-degree column, from the destinations. -/
theorem host1_v13 (W : Valuation τ sig (Elt F)) :
    (StableHlo.after hostOps1_2 (StableHlo.after hostOps1_1 (StableHlo.after hostOps1 W)) (Proc.devRef .tc main_v13) : FVec F S100000x1 .f32)
      = invDegree (F := F) (W (Proc.devRef .tc main_arg6)) := by
  dsimp only [hostOps1, hostOps1_1, hostOps1_2]
  after_results_simp
  rfl

/-- Between the first stage and the first round: the aggregated table of the first stage's result. -/
theorem host1_v25 (W : Valuation τ sig (Elt F)) :
    (StableHlo.after hostOps1_2 (StableHlo.after hostOps1_1 (StableHlo.after hostOps1 W)) (Proc.devRef .tc main_v25) : FVec F S100000x128 .f32)
      = aggregate (F := F) (W (Proc.devRef .tc main_v1)) (W (Proc.devRef .tc main_arg5)) (W (Proc.devRef .tc main_arg6))
          (invDegree (F := F) (W (Proc.devRef .tc main_arg6))) := by
  dsimp only [hostOps1, hostOps1_1, hostOps1_2]
  after_results_simp
  rfl

/-- Between the first stage and the first round: the bias row of the rounds is the one-row cast of the second bias
    vector. -/
theorem host1_v26 (W : Valuation τ sig (Elt F)) :
    (StableHlo.after hostOps1_2 (StableHlo.after hostOps1_1 (StableHlo.after hostOps1 W)) (Proc.devRef .tc main_v26) : FVec F S1x128 .f32)
      = shapeCast S1x128 (W (Proc.devRef .tc main_arg4) : FVec F S128 .f32) shapeCasts_S128_S1x128 := by
  dsimp only [hostOps1, hostOps1_1, hostOps1_2]
  after_results_simp
  rfl

theorem host1_keep_v1 (W : Valuation τ sig (Elt F)) :
    StableHlo.after hostOps1_2 (StableHlo.after hostOps1_1 (StableHlo.after hostOps1 W)) (Proc.devRef .tc main_v1) = W (Proc.devRef .tc main_v1) := by
  dsimp only [hostOps1, hostOps1_1, hostOps1_2]
  after_results_simp

theorem host1_keep_arg3 (W : Valuation τ sig (Elt F)) :
    StableHlo.after hostOps1_2 (StableHlo.after hostOps1_1 (StableHlo.after hostOps1 W)) (Proc.devRef .tc main_arg3) = W (Proc.devRef .tc main_arg3) := by
  dsimp only [hostOps1, hostOps1_1, hostOps1_2]
  after_results_simp

theorem host1_keep_arg4 (W : Valuation τ sig (Elt F)) :
    StableHlo.after hostOps1_2 (StableHlo.after hostOps1_1 (StableHlo.after hostOps1 W)) (Proc.devRef .tc main_arg4) = W (Proc.devRef .tc main_arg4) := by
  dsimp only [hostOps1, hostOps1_1, hostOps1_2]
  after_results_simp

theorem host1_keep_arg5 (W : Valuation τ sig (Elt F)) :
    StableHlo.after hostOps1_2 (StableHlo.after hostOps1_1 (StableHlo.after hostOps1 W)) (Proc.devRef .tc main_arg5) = W (Proc.devRef .tc main_arg5) := by
  dsimp only [hostOps1, hostOps1_1, hostOps1_2]
  after_results_simp

theorem host1_keep_arg6 (W : Valuation τ sig (Elt F)) :
    StableHlo.after hostOps1_2 (StableHlo.after hostOps1_1 (StableHlo.after hostOps1 W)) (Proc.devRef .tc main_arg6) = W (Proc.devRef .tc main_arg6) := by
  dsimp only [hostOps1, hostOps1_1, hostOps1_2]
  after_results_simp

/-- Between the first round and the second: the aggregated table of the first round's result. -/
theorem host2_v39 (W : Valuation τ sig (Elt F)) :
    (StableHlo.after hostOps2 W (Proc.devRef .tc main_v39) : FVec F S100000x128 .f32)
      = aggregate (F := F) (W (Proc.devRef .tc main_v27)) (W (Proc.devRef .tc main_arg5)) (W (Proc.devRef .tc main_arg6)) (W (Proc.devRef .tc main_v13)) := by
  dsimp only [hostOps2]
  after_results
  rfl

/-- Between the first round and the second: the bias row again. -/
theorem host2_v40 (W : Valuation τ sig (Elt F)) :
    (StableHlo.after hostOps2 W (Proc.devRef .tc main_v40) : FVec F S1x128 .f32)
      = shapeCast S1x128 (W (Proc.devRef .tc main_arg4) : FVec F S128 .f32) shapeCasts_S128_S1x128 := by
  dsimp only [hostOps2]
  after_results
  rfl

theorem host2_keep_v27 (W : Valuation τ sig (Elt F)) :
    StableHlo.after hostOps2 W (Proc.devRef .tc main_v27) = W (Proc.devRef .tc main_v27) := by
  dsimp only [hostOps2]
  after_results

theorem host2_keep_v13 (W : Valuation τ sig (Elt F)) :
    StableHlo.after hostOps2 W (Proc.devRef .tc main_v13) = W (Proc.devRef .tc main_v13) := by
  dsimp only [hostOps2]
  after_results

theorem host2_keep_arg3 (W : Valuation τ sig (Elt F)) :
    StableHlo.after hostOps2 W (Proc.devRef .tc main_arg3) = W (Proc.devRef .tc main_arg3) := by
  dsimp only [hostOps2]
  after_results

theorem host2_keep_arg4 (W : Valuation τ sig (Elt F)) :
    StableHlo.after hostOps2 W (Proc.devRef .tc main_arg4) = W (Proc.devRef .tc main_arg4) := by
  dsimp only [hostOps2]
  after_results

theorem host2_keep_arg5 (W : Valuation τ sig (Elt F)) :
    StableHlo.after hostOps2 W (Proc.devRef .tc main_arg5) = W (Proc.devRef .tc main_arg5) := by
  dsimp only [hostOps2]
  after_results

theorem host2_keep_arg6 (W : Valuation τ sig (Elt F)) :
    StableHlo.after hostOps2 W (Proc.devRef .tc main_arg6) = W (Proc.devRef .tc main_arg6) := by
  dsimp only [hostOps2]
  after_results

/-- Between the second round and the third: the aggregated table of the second round's result. -/
theorem host3_v53 (W : Valuation τ sig (Elt F)) :
    (StableHlo.after hostOps3 W (Proc.devRef .tc main_v53) : FVec F S100000x128 .f32)
      = aggregate (F := F) (W (Proc.devRef .tc main_v41)) (W (Proc.devRef .tc main_arg5)) (W (Proc.devRef .tc main_arg6)) (W (Proc.devRef .tc main_v13)) := by
  dsimp only [hostOps3]
  after_results
  rfl

/-- Between the second round and the third: the bias row again. -/
theorem host3_v54 (W : Valuation τ sig (Elt F)) :
    (StableHlo.after hostOps3 W (Proc.devRef .tc main_v54) : FVec F S1x128 .f32)
      = shapeCast S1x128 (W (Proc.devRef .tc main_arg4) : FVec F S128 .f32) shapeCasts_S128_S1x128 := by
  dsimp only [hostOps3]
  after_results
  rfl

theorem host3_keep_v41 (W : Valuation τ sig (Elt F)) :
    StableHlo.after hostOps3 W (Proc.devRef .tc main_v41) = W (Proc.devRef .tc main_v41) := by
  dsimp only [hostOps3]
  after_results

theorem host3_keep_arg3 (W : Valuation τ sig (Elt F)) :
    StableHlo.after hostOps3 W (Proc.devRef .tc main_arg3) = W (Proc.devRef .tc main_arg3) := by
  dsimp only [hostOps3]
  after_results

end Host

/-! ## The fold of the run's boundaries, at the extended reals

Core c's buffers at the ten boundaries of the run are the generated fold W0 … W10 from the launch memory m. The fold
is walked once, forwards, reading at each boundary only the buffers the next segment reads; no boundary's contents
are ever unfolded. -/

section Fold

variable (m : (ℓ : Loc nD τ sig) → Buf (Elt Ideal) ℓ) (ρ : Dev nD → PrngReg) (c : Dev nD)

/-- The mean of the neighbours' rows over the launched edge lists. -/
abbrev agg (h : FVec Ideal S100000x128 .f32) : FVec Ideal S100000x128 .f32 :=
  aggregate (F := Ideal) h (m ((c.tc : Thread nD τ).loc main_arg5)) (m ((c.tc : Thread nD τ).loc main_arg6)) (invDegree (F := Ideal) (m ((c.tc : Thread nD τ).loc main_arg6)))

/-- The embedding of the launched features. -/
abbrev tab0 : FVec Ideal S100000x128 .f32 :=
  embed (m ((c.tc : Thread nD τ).loc main_arg0)) (m ((c.tc : Thread nD τ).loc main_arg1)) (m ((c.tc : Thread nD τ).loc main_arg2))
/-- The table after one round. -/
abbrev tab1 : FVec Ideal S100000x128 .f32 :=
  update (agg m c (tab0 m c)) (tab0 m c) (m ((c.tc : Thread nD τ).loc main_arg3)) (m ((c.tc : Thread nD τ).loc main_arg4))
/-- The table after two rounds. -/
abbrev tab2 : FVec Ideal S100000x128 .f32 :=
  update (agg m c (tab1 m c)) (tab1 m c) (m ((c.tc : Thread nD τ).loc main_arg3)) (m ((c.tc : Thread nD τ).loc main_arg4))
/-- The table after three rounds. -/
abbrev tab3 : FVec Ideal S100000x128 .f32 :=
  update (agg m c (tab2 m c)) (tab2 m c) (m ((c.tc : Thread nD τ).loc main_arg3)) (m ((c.tc : Thread nD τ).loc main_arg4))

/-! ### The first stage -/

/-- At the first stage's entry a buffer other than the bias row holds its launch contents. -/
theorem W1_keep {b : Ref sig .tc} (hb : b ≠ main_v0) :
    W1 m ρ c (Proc.devRef .tc b) = m ((c.tc : Thread nD τ).loc b) :=
  host0_keep (W0 m ρ c) hb

/-- At the first stage's exit its result table is the embedding. -/
theorem W2_v1 : (W2 m ρ c (Proc.devRef .tc main_v1) : FVec Ideal S100000x128 .f32) = tab0 m c := by
  refine (W2_arr m ρ c 3).trans ((embed_array (V1 m ρ) c (m ((c.tc : Thread nD τ).loc main_arg2)) (host0_v0 (W0 m ρ c))).trans ?_)
  show embed (W1 m ρ c (Proc.devRef .tc main_arg0)) (W1 m ρ c (Proc.devRef .tc main_arg1)) _ = _
  rw [W1_keep m ρ c (b := main_arg0) (by decide), W1_keep m ρ c (b := main_arg1) (by decide)]

/-- At the first stage's exit a buffer that is none of its arrays, nor the bias row, holds its launch contents. -/
theorem W2_keep {b : Ref sig .tc} (h : ∀ w, Pipeline.arrRef spec0 w ≠ b) (hb : b ≠ main_v0) :
    W2 m ρ c (Proc.devRef .tc b) = m ((c.tc : Thread nD τ).loc b) :=
  (W2_of_ne m ρ c b h).trans (W1_keep m ρ c hb)

/-! ### The first round -/

theorem W5_v25 : (W5 m ρ c (Proc.devRef .tc main_v25) : FVec Ideal S100000x128 .f32) = agg m c (tab0 m c) := by
  refine (host1_v25 (W2 m ρ c)).trans ?_
  rw [W2_v1 m ρ c, W2_keep m ρ c (b := main_arg5) (by decide) (by decide),
    W2_keep m ρ c (b := main_arg6) (by decide) (by decide)]
theorem W5_v13 : (W5 m ρ c (Proc.devRef .tc main_v13) : FVec Ideal S100000x1 .f32) = invDegree (F := Ideal) (m ((c.tc : Thread nD τ).loc main_arg6)) := by
  refine (host1_v13 (W2 m ρ c)).trans ?_
  rw [W2_keep m ρ c (b := main_arg6) (by decide) (by decide)]
theorem W5_v26 : (W5 m ρ c (Proc.devRef .tc main_v26) : FVec Ideal S1x128 .f32)
    = shapeCast S1x128 (m ((c.tc : Thread nD τ).loc main_arg4)) shapeCasts_S128_S1x128 := by
  refine (host1_v26 (W2 m ρ c)).trans ?_
  rw [W2_keep m ρ c (b := main_arg4) (by decide) (by decide)]
theorem W5_v1 : (W5 m ρ c (Proc.devRef .tc main_v1) : FVec Ideal S100000x128 .f32) = tab0 m c :=
  (host1_keep_v1 (W2 m ρ c)).trans (W2_v1 m ρ c)
theorem W5_arg3 : W5 m ρ c (Proc.devRef .tc main_arg3) = (m ((c.tc : Thread nD τ).loc main_arg3)) :=
  (host1_keep_arg3 (W2 m ρ c)).trans (W2_keep m ρ c (by decide) (by decide))
theorem W5_arg4 : W5 m ρ c (Proc.devRef .tc main_arg4) = (m ((c.tc : Thread nD τ).loc main_arg4)) :=
  (host1_keep_arg4 (W2 m ρ c)).trans (W2_keep m ρ c (by decide) (by decide))
theorem W5_arg5 : W5 m ρ c (Proc.devRef .tc main_arg5) = (m ((c.tc : Thread nD τ).loc main_arg5)) :=
  (host1_keep_arg5 (W2 m ρ c)).trans (W2_keep m ρ c (by decide) (by decide))
theorem W5_arg6 : W5 m ρ c (Proc.devRef .tc main_arg6) = (m ((c.tc : Thread nD τ).loc main_arg6)) :=
  (host1_keep_arg6 (W2 m ρ c)).trans (W2_keep m ρ c (by decide) (by decide))

/-- At the first round's exit its result table is one round from the embedding. -/
theorem W6_v27 : (W6 m ρ c (Proc.devRef .tc main_v27) : FVec Ideal S100000x128 .f32) = tab1 m c := by
  refine (W6_arr m ρ c 4).trans ((update_array1 (V5 m ρ) c (m ((c.tc : Thread nD τ).loc main_arg4)) (W5_v26 m ρ c)).trans ?_)
  show update (W5 m ρ c (Proc.devRef .tc main_v25)) (W5 m ρ c (Proc.devRef .tc main_v1)) (W5 m ρ c (Proc.devRef .tc main_arg3)) _ = _
  rw [W5_v25 m ρ c, W5_v1 m ρ c, W5_arg3 m ρ c]
theorem W6_v13 : (W6 m ρ c (Proc.devRef .tc main_v13) : FVec Ideal S100000x1 .f32) = invDegree (F := Ideal) (m ((c.tc : Thread nD τ).loc main_arg6)) :=
  (W6_of_ne m ρ c main_v13 (by decide)).trans (W5_v13 m ρ c)
theorem W6_arg3 : W6 m ρ c (Proc.devRef .tc main_arg3) = (m ((c.tc : Thread nD τ).loc main_arg3)) :=
  ((W6_arr m ρ c 2).trans (((dat1 (V5 m ρ) c).arrAt_in 2 rfl _).trans (A_eq1 (V5 m ρ) c 2))).trans (W5_arg3 m ρ c)
theorem W6_arg4 : W6 m ρ c (Proc.devRef .tc main_arg4) = (m ((c.tc : Thread nD τ).loc main_arg4)) :=
  (W6_of_ne m ρ c main_arg4 (by decide)).trans (W5_arg4 m ρ c)
theorem W6_arg5 : W6 m ρ c (Proc.devRef .tc main_arg5) = (m ((c.tc : Thread nD τ).loc main_arg5)) :=
  (W6_of_ne m ρ c main_arg5 (by decide)).trans (W5_arg5 m ρ c)
theorem W6_arg6 : W6 m ρ c (Proc.devRef .tc main_arg6) = (m ((c.tc : Thread nD τ).loc main_arg6)) :=
  (W6_of_ne m ρ c main_arg6 (by decide)).trans (W5_arg6 m ρ c)

/-! ### The second round -/

theorem W7_v39 : (W7 m ρ c (Proc.devRef .tc main_v39) : FVec Ideal S100000x128 .f32) = agg m c (tab1 m c) := by
  refine (host2_v39 (W6 m ρ c)).trans ?_
  rw [W6_v27 m ρ c, W6_arg5 m ρ c, W6_arg6 m ρ c, W6_v13 m ρ c]
theorem W7_v40 : (W7 m ρ c (Proc.devRef .tc main_v40) : FVec Ideal S1x128 .f32)
    = shapeCast S1x128 (m ((c.tc : Thread nD τ).loc main_arg4)) shapeCasts_S128_S1x128 := by
  refine (host2_v40 (W6 m ρ c)).trans ?_
  rw [W6_arg4 m ρ c]
theorem W7_v27 : (W7 m ρ c (Proc.devRef .tc main_v27) : FVec Ideal S100000x128 .f32) = tab1 m c :=
  (host2_keep_v27 (W6 m ρ c)).trans (W6_v27 m ρ c)
theorem W7_v13 : (W7 m ρ c (Proc.devRef .tc main_v13) : FVec Ideal S100000x1 .f32) = invDegree (F := Ideal) (m ((c.tc : Thread nD τ).loc main_arg6)) :=
  (host2_keep_v13 (W6 m ρ c)).trans (W6_v13 m ρ c)
theorem W7_arg3 : W7 m ρ c (Proc.devRef .tc main_arg3) = (m ((c.tc : Thread nD τ).loc main_arg3)) :=
  (host2_keep_arg3 (W6 m ρ c)).trans (W6_arg3 m ρ c)
theorem W7_arg4 : W7 m ρ c (Proc.devRef .tc main_arg4) = (m ((c.tc : Thread nD τ).loc main_arg4)) :=
  (host2_keep_arg4 (W6 m ρ c)).trans (W6_arg4 m ρ c)
theorem W7_arg5 : W7 m ρ c (Proc.devRef .tc main_arg5) = (m ((c.tc : Thread nD τ).loc main_arg5)) :=
  (host2_keep_arg5 (W6 m ρ c)).trans (W6_arg5 m ρ c)
theorem W7_arg6 : W7 m ρ c (Proc.devRef .tc main_arg6) = (m ((c.tc : Thread nD τ).loc main_arg6)) :=
  (host2_keep_arg6 (W6 m ρ c)).trans (W6_arg6 m ρ c)

/-- At the second round's exit its result table is two rounds from the embedding. -/
theorem W8_v41 : (W8 m ρ c (Proc.devRef .tc main_v41) : FVec Ideal S100000x128 .f32) = tab2 m c := by
  refine (W8_arr m ρ c 4).trans ((update_array2 (V7 m ρ) c (m ((c.tc : Thread nD τ).loc main_arg4)) (W7_v40 m ρ c)).trans ?_)
  show update (W7 m ρ c (Proc.devRef .tc main_v39)) (W7 m ρ c (Proc.devRef .tc main_v27)) (W7 m ρ c (Proc.devRef .tc main_arg3)) _ = _
  rw [W7_v39 m ρ c, W7_v27 m ρ c, W7_arg3 m ρ c]
theorem W8_v13 : (W8 m ρ c (Proc.devRef .tc main_v13) : FVec Ideal S100000x1 .f32) = invDegree (F := Ideal) (m ((c.tc : Thread nD τ).loc main_arg6)) :=
  (W8_of_ne m ρ c main_v13 (by decide)).trans (W7_v13 m ρ c)
theorem W8_arg3 : W8 m ρ c (Proc.devRef .tc main_arg3) = (m ((c.tc : Thread nD τ).loc main_arg3)) :=
  ((W8_arr m ρ c 2).trans (((dat2 (V7 m ρ) c).arrAt_in 2 rfl _).trans (A_eq2 (V7 m ρ) c 2))).trans (W7_arg3 m ρ c)
theorem W8_arg4 : W8 m ρ c (Proc.devRef .tc main_arg4) = (m ((c.tc : Thread nD τ).loc main_arg4)) :=
  (W8_of_ne m ρ c main_arg4 (by decide)).trans (W7_arg4 m ρ c)
theorem W8_arg5 : W8 m ρ c (Proc.devRef .tc main_arg5) = (m ((c.tc : Thread nD τ).loc main_arg5)) :=
  (W8_of_ne m ρ c main_arg5 (by decide)).trans (W7_arg5 m ρ c)
theorem W8_arg6 : W8 m ρ c (Proc.devRef .tc main_arg6) = (m ((c.tc : Thread nD τ).loc main_arg6)) :=
  (W8_of_ne m ρ c main_arg6 (by decide)).trans (W7_arg6 m ρ c)

/-! ### The third round -/

theorem W9_v53 : (W9 m ρ c (Proc.devRef .tc main_v53) : FVec Ideal S100000x128 .f32) = agg m c (tab2 m c) := by
  refine (host3_v53 (W8 m ρ c)).trans ?_
  rw [W8_v41 m ρ c, W8_arg5 m ρ c, W8_arg6 m ρ c, W8_v13 m ρ c]
theorem W9_v54 : (W9 m ρ c (Proc.devRef .tc main_v54) : FVec Ideal S1x128 .f32)
    = shapeCast S1x128 (m ((c.tc : Thread nD τ).loc main_arg4)) shapeCasts_S128_S1x128 := by
  refine (host3_v54 (W8 m ρ c)).trans ?_
  rw [W8_arg4 m ρ c]
theorem W9_v41 : (W9 m ρ c (Proc.devRef .tc main_v41) : FVec Ideal S100000x128 .f32) = tab2 m c :=
  (host3_keep_v41 (W8 m ρ c)).trans (W8_v41 m ρ c)
theorem W9_arg3 : W9 m ρ c (Proc.devRef .tc main_arg3) = (m ((c.tc : Thread nD τ).loc main_arg3)) :=
  (host3_keep_arg3 (W8 m ρ c)).trans (W8_arg3 m ρ c)

/-- At the third round's exit, the end of the run, its result table is three rounds from the embedding. -/
theorem W10_v55 : (W10 m ρ c (Proc.devRef .tc main_v55) : FVec Ideal S100000x128 .f32) = tab3 m c := by
  refine (W10_arr m ρ c 4).trans ((update_array3 (V9 m ρ) c (m ((c.tc : Thread nD τ).loc main_arg4)) (W9_v54 m ρ c)).trans ?_)
  show update (W9 m ρ c (Proc.devRef .tc main_v53)) (W9 m ρ c (Proc.devRef .tc main_v41)) (W9 m ρ c (Proc.devRef .tc main_arg3)) _ = _
  rw [W9_v53 m ρ c, W9_v41 m ρ c, W9_arg3 m ρ c]

end Fold

/-! ## The result -/

/-- What the kernel computes on core c from the launch memory: three rounds of mean aggregation from the embedding of
    the launched features, the aggregation over the launched edge lists. -/
def result (m : (ℓ : Loc nD τ sig) → Buf (Elt Ideal) ℓ) (c : Dev nD) : FVec Ideal S100000x128 .f32 :=
  Cert.MeanRounds.threeRounds
    (fun h => aggregate (F := Ideal) h (m ((c.tc : Thread nD τ).loc main_arg5)) (m ((c.tc : Thread nD τ).loc main_arg6))
      (invDegree (F := Ideal) (m ((c.tc : Thread nD τ).loc main_arg6))))
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The last boundary's contents at the result buffer are that result. -/
theorem fold (m : (ℓ : Loc nD τ sig) → Buf (Elt Ideal) ℓ) (ρ : Dev nD → PrngReg) (c : Dev nD) :
    W10 (F := Ideal) m ρ c (Proc.devRef .tc main_v55) = result m c :=
  (W10_v55 m ρ c).trans rfl

/-- The idealized kernel's run: it terminates, nothing faulting, the result buffer holds the result, and the seven
    argument arrays are as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v55) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (fold m ρ c), (h c).2⟩) (run_named m ρ)

end Cert.KernelIdeal.Hand

end
-- ==== Proof.RefGlue.lean ====
/-
  The irregular part of one round of mean aggregation, as the idealized reference spells it: the reciprocal in-degree
  of every node, and the mean of the neighbours' rows of a node table. Both are whole-array functions of the edge
  lists; no property of theirs is used beyond their being functions.
-/
import proofs.«113646_j45191645888914_1_alg».proof.Proof.Gen.ReferenceIdeal

noncomputable section

namespace Cert.ReferenceIdeal.Hand

open Idealize.ShloMosaic Cert.ReferenceIdeal Cert.ReferenceIdeal.Gen

variable {F : FTy → Type} [FloatOps F]

/-- The reciprocal in-degree of every node, as a column: the in-degree is the number of edges whose destination is
    the node (ones summed into a zero vector at the destinations); a node with positive in-degree gets
    1 / max(in-degree, 1), any other node 0. -/
def invDegree (dst : IVec S1600000 32) : FVec F S100000x1 .f32 :=
  broadcastInDim S100000x1 ![0] bcast_S100000_S100000x1_0
    (select
      (cmpf .ogt
        (Host.scatterAdd scatter_S100000_S1600000x1_S1600000_n_0_0_1
          (broadcastInDim S100000 ![] bcast_S_S100000 (constant (F := F) S_ .f32 0x00000000#32))
          (broadcastInDim S1600000x1 ![0] bcast_S1600000_S1600000x1_0 dst)
          (broadcastInDim S1600000 ![] bcast_S_S1600000 (constant (F := F) S_ .f32 0x3F800000#32)))
        (broadcastInDim S100000 ![] bcast_S_S100000 (constant (F := F) S_ .f32 0x00000000#32)))
      (Host.divf (broadcastInDim S100000 ![] bcast_S_S100000 (constant (F := F) S_ .f32 0x3F800000#32))
        (maximumf
          (Host.scatterAdd scatter_S100000_S1600000x1_S1600000_n_0_0_1
            (broadcastInDim S100000 ![] bcast_S_S100000 (constant (F := F) S_ .f32 0x00000000#32))
            (broadcastInDim S1600000x1 ![0] bcast_S1600000_S1600000x1_0 dst)
            (broadcastInDim S1600000 ![] bcast_S_S1600000 (constant (F := F) S_ .f32 0x3F800000#32)))
          (broadcastInDim S100000 ![] bcast_S_S100000 (constant (F := F) S_ .f32 0x3F800000#32))))
      (broadcastInDim S100000 ![] bcast_S_S100000 (id (constant (F := F) S_ .f32 0x00000000#32))))

/-- The aggregated table of a node table h: row i is the sum of the rows h(source of e) over the edges e whose
    destination is i (a negative source index counted from the end of the table), scaled by the node's reciprocal
    in-degree `inv` — the mean of the neighbours' rows. -/
def aggregate (h : FVec F S100000x128 .f32) (src dst : IVec S1600000 32) (inv : FVec F S100000x1 .f32) :
    FVec F S100000x128 .f32 :=
  mulf
    (Host.scatterAdd scatter_S100000x128_S1600000x1_S1600000x128_1_0_0_1
      (broadcastInDim S100000x128 ![] bcast_S_S100000x128 (constant (F := F) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1 inv)

end Cert.ReferenceIdeal.Hand

end
-- ==== Proof.LibRowBias.lean ====
/-
  A vector laid along every row of a matrix, read at an entry. A kernel spells it as the broadcast down the rows of the
  vector's one-row cast; a host program as two broadcasts, first to a one-row matrix along axis 1 and then down the rows.
  Either way the entry at row r and column k is the vector's entry k. Nothing here depends on a program or on the
  element type.
-/
import Idealize.ShloMosaic.Lib.Pipeline.Value
import Idealize.ShloMosaic.Lib.ValueIdx
import Idealize.ShloMosaic.Lib.KernelVsHost

namespace Cert.LibRowBias

open Idealize.ShloMosaic Idealize.ShloMosaic.ValueIdx

variable {α : Type}

/-- The kernel's spelling: the vector cast to one row, the row broadcast down m rows. -/
theorem rowCast_broadcast_apply {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (k : Fin n) :
    broadcastTo ⟨2, ![m, n]⟩ (shapeCast ⟨2, ![1, n]⟩ b h1) hb (ix2 p k) = b (ix1 k) := by
  have e1 := broadcastTo_apply (shapeCast ⟨2, ![1, n]⟩ b h1) hb (ix2 p k) (ix2 (0 : Fin 1) k) (by
    intro a
    match a with
    | ⟨0, _⟩ => rfl
    | ⟨1, _⟩ =>
      show k.val = if n = 1 then 0 else k.val
      split
      · have := k.isLt; omega
      · rfl)
  have e2 := shapeCast_apply b h1 (ix2 (0 : Fin 1) k) (ix1 k) (by
    rw [Shape.rowMajor_val_two, Shape.rowMajor_val_one]; show k.val = 0 * n + k.val; omega)
  exact e1.trans e2

/-- The host's spelling: the vector broadcast along axis 1 to one row, the row broadcast down m rows. -/
theorem row_broadcastInDim_apply {m n : Nat} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (k : Fin n) :
    broadcastInDim ⟨2, ![m, n]⟩ ![0, 1] hd2 (broadcastInDim ⟨2, ![1, n]⟩ ![1] hd1 b) (ix2 r k) = b (ix1 k) := by
  refine (broadcastInDim_oneRow_apply hd2 _ r k).trans ?_
  refine broadcastInDim_apply ![1] hd1 b (ix2 (0 : Fin 1) k) (ix1 k) ?_
  intro a
  match a with
  | ⟨0, _⟩ =>
    show k.val = if n = 1 then 0 else k.val
    split
    · have := k.isLt; omega
    · rfl

end Cert.LibRowBias
-- ==== Proof.RefValue.lean ====
/-
  The dense stages of the idealized reference, entry by entry.

  The reference computes a dense stage on whole tables: the product of a node table with a weight matrix, the bias laid
  along every row and added, then (in a round) the current table added, and the leaky rectifier spelt as a choice between
  the value and the slope's multiple of it, by the comparison of the value with zero. Read at an entry (r, k) the product
  is  ∑ j, a(r, j) · w(j, k), the laid-out bias is b(k), and every other operation acts entry by entry, so the stage is
  the embedding, or the round's update, of Spec.lean.
-/
import proofs.«113646_j45191645888914_1_alg».proof.Proof.Gen.ReferenceIdeal
import proofs.«113646_j45191645888914_1_alg».proof.Proof.Spec
import proofs.«113646_j45191645888914_1_alg».proof.Proof.LibMatmulAt
import proofs.«113646_j45191645888914_1_alg».proof.Proof.LibRowBias

noncomputable section

namespace Cert.ReferenceIdeal.Hand

open Idealize.ShloMosaic Idealize.ShloMosaic.ValueIdx Cert.ReferenceIdeal Cert.ReferenceIdeal.Gen

section Terms

variable {F : FTy → Type} [FloatOps F]

/-- The dense layer on whole tables: the product with the weights plus the bias laid along every row. -/
def hostAffine (a : FVec F S100000x128 .f32) (w : FVec F S128x128 .f32) (b : FVec F S128 .f32) : FVec F S100000x128 .f32 :=
  addf (Host.dotGeneral dot_S100000x128_S128x128_S100000x128_1_0_0_1_n_n none a w)
    (broadcastInDim S100000x128 ![0, 1] bcast_S1x128_S100000x128_0_1 (broadcastInDim S1x128 ![1] bcast_S128_S1x128_1 b))

/-- The leaky rectifier on whole tables: where the value is at least zero the value, elsewhere the slope's multiple. -/
def hostLeaky (v : FVec F S100000x128 .f32) : FVec F S100000x128 .f32 :=
  select (cmpf .oge v (broadcastInDim S100000x128 ![] bcast_S_S100000x128 (constant (F := F) S_ .f32 0x00000000#32))) v
    (mulf (broadcastInDim S100000x128 ![] bcast_S_S100000x128 (constant (F := F) S_ .f32 0x3C23D70A#32)) v)

/-- The embedding as the reference's first eleven operations compose it. -/
def hostEmbed (x : FVec F S100000x128 .f32) (w : FVec F S128x128 .f32) (b : FVec F S128 .f32) : FVec F S100000x128 .f32 :=
  hostLeaky (hostAffine x w b)

/-- One round's dense stage as the reference composes it: the sum taken as (product + bias) + current table. -/
def hostUpdate (a h : FVec F S100000x128 .f32) (w : FVec F S128x128 .f32) (b : FVec F S128 .f32) : FVec F S100000x128 .f32 :=
  hostLeaky (addf (hostAffine a w b) h)

end Terms

/-- The dense layer at an entry. -/
theorem hostAffine_apply (a : FVec Ideal S100000x128 .f32) (w : FVec Ideal S128x128 .f32) (b : FVec Ideal S128 .f32)
    (r : Fin 100000) (k : Fin 128) : hostAffine a w b (ix2 r k) = Cert.MeanRounds.affine a w b r k := by
  unfold hostAffine Cert.MeanRounds.affine
  rw [addf_apply]
  refine congrArg₂ (· + ·) ?_ ?_
  · exact Cert.KernelIdeal.Hand.dotGeneral_plain_apply' dot_S100000x128_S128x128_S100000x128_1_0_0_1_n_n rfl none a w (ix2 r k)
  · exact Cert.LibRowBias.row_broadcastInDim_apply b bcast_S128_S1x128_1 bcast_S1x128_S100000x128_0_1 r k

/-- The rectifier at an entry. -/
theorem hostLeaky_apply (v : FVec Ideal S100000x128 .f32) (i : S100000x128.Idx) :
    hostLeaky v i = Cert.MeanRounds.leaky (v i) := rfl

/-- The reference's embedding is the embedding. -/
theorem host_embed (x : FVec Ideal S100000x128 .f32) (w : FVec Ideal S128x128 .f32) (b : FVec Ideal S128 .f32) :
    hostEmbed x w b = Cert.MeanRounds.embed x w b := by
  funext i
  obtain ⟨r, k, rfl⟩ : ∃ (r : Fin 100000) (k : Fin 128), i = ix2 r k := ⟨i 0, i 1, eq_ix2 i⟩
  show hostLeaky (hostAffine x w b) (ix2 r k) = Cert.MeanRounds.leaky (Cert.MeanRounds.affine x w b r k)
  rw [hostLeaky_apply, hostAffine_apply]

/-- The reference's round is the update. -/
theorem host_update (a h : FVec Ideal S100000x128 .f32) (w : FVec Ideal S128x128 .f32) (b : FVec Ideal S128 .f32) :
    hostUpdate a h w b = Cert.MeanRounds.update a h w b := by
  funext i
  obtain ⟨r, k, rfl⟩ : ∃ (r : Fin 100000) (k : Fin 128), i = ix2 r k := ⟨i 0, i 1, eq_ix2 i⟩
  show hostLeaky (addf (hostAffine a w b) h) (ix2 r k)
    = Cert.MeanRounds.leaky (Cert.MeanRounds.affine a w b r k + h (ix2 r k))
  rw [hostLeaky_apply, addf_apply, hostAffine_apply]

end Cert.ReferenceIdeal.Hand

end
-- ==== Proof.GlueSame.lean ====
/-
  The two programs spell the irregular part of a round — the reciprocal in-degree and the mean of the neighbours'
  rows — by the same host operations with the same dimension numbers: as functions they are one and the same.
-/
import proofs.«113646_j45191645888914_1_alg».proof.Proof.KernelGlue
import proofs.«113646_j45191645888914_1_alg».proof.Proof.RefGlue
import Idealize.ShloMosaic.PureOps.Ideal

noncomputable section

namespace Cert.Proof.Hand

open Idealize.ShloMosaic

/-- The reciprocal in-degree is one function in both programs. -/
theorem invDegree_same :
    @Cert.ReferenceIdeal.Hand.invDegree Ideal _ = @Cert.KernelIdeal.Hand.invDegree Ideal _ := rfl

/-- The neighbours' mean is one function in both programs. -/
theorem aggregate_same :
    @Cert.ReferenceIdeal.Hand.aggregate Ideal _ = @Cert.KernelIdeal.Hand.aggregate Ideal _ := rfl

end Cert.Proof.Hand

end
-- ==== Proof.lean ====
/- The five claims for three rounds of mean-aggregation message passing over a graph.

   Both programs compute, from node features x, two dense layers (W1, b1), (W2, b2) and an edge list, the table
   h3 where h0 = leaky(x·W1 + b1) and h(n+1) = leaky(mean_neighbours(h(n))·W2 + b2 + h(n)); the mean is a gather of
   the source rows, a scatter-add at the destinations and a scale by the reciprocal in-degree. The kernel runs the four
   dense stages block by block (twenty blocks of 5000 rows, the operands rounded to bf16 on the way into the product)
   and everything else as whole-array host operations; the reference is whole-array throughout. On the extended
   reals the rounding is the identity and a block's product is the exact contraction, so every dense stage is the
   same whole-table function in both (Proof/KernelBlocks.lean against Proof/Spec.lean; the reference's stages in
   Proof/RefValue.lean), the irregular part is literally one function (Proof/GlueSame.lean), and the two results are one
   composition (Proof/KernelFold.lean, Proof/RefRun.lean). No law beyond reading a product at an index is used, and
   the finiteness of the inputs is not needed. The kernel's idealization rewrote nothing, so `preserves` is trivial;
   the frames are the generated ones, the reference's its run with the result dropped. -/
import proofs.«113646_j45191645888914_1_alg».proof.Defs
import proofs.«113646_j45191645888914_1_alg».proof.Proof.Gen.Kernel
import proofs.«113646_j45191645888914_1_alg».proof.Proof.Gen.Kernel.Skeleton
import proofs.«113646_j45191645888914_1_alg».proof.Proof.Gen.Kernel.Launch
import proofs.«113646_j45191645888914_1_alg».proof.Proof.Gen.Kernel.Points
import proofs.«113646_j45191645888914_1_alg».proof.Proof.Gen.Kernel.Frame
import proofs.«113646_j45191645888914_1_alg».proof.Proof.Gen.KernelIdeal
import proofs.«113646_j45191645888914_1_alg».proof.Proof.Gen.KernelIdeal.Skeleton
import proofs.«113646_j45191645888914_1_alg».proof.Proof.Gen.KernelIdeal.Launch
import proofs.«113646_j45191645888914_1_alg».proof.Proof.Gen.KernelIdeal.Points
import proofs.«113646_j45191645888914_1_alg».proof.Proof.Gen.KernelIdeal.Frame
import proofs.«113646_j45191645888914_1_alg».proof.Proof.Gen.ReferenceIdeal
import proofs.«113646_j45191645888914_1_alg».proof.Proof.Gen.Pre_finite_inputs
import proofs.«113646_j45191645888914_1_alg».proof.Proof.KernelFold
import proofs.«113646_j45191645888914_1_alg».proof.Proof.RefRun
import proofs.«113646_j45191645888914_1_alg».proof.Proof.GlueSame
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result forgotten. -/
theorem frame_referenceIdeal : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- From memories that agree on the seven arguments the two programs end with the same table: each ends at three
    rounds from the embedding of its own arguments, with its own spelling of the neighbours' mean, and those
    spellings are one function. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨a0, a1, a2, a3, a4, a5, a6⟩ := hagree c
  unfold Cert.ReferenceIdeal.Hand.result Cert.KernelIdeal.Hand.result
  rw [a0, a1, a2, a3, a4, a5, a6, Cert.Proof.Hand.invDegree_same, Cert.Proof.Hand.aggregate_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
